-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S256x65536x2 : Shape := ⟨3, ![256, 65536, 2]⟩
abbrev S_ : Shape := ⟨0, ![]⟩

class Facts : Prop where
  bcast_S_S256x65536x2 : S_.BroadcastsInDim S256x65536x2 (![] : Fin 0 → Fin S256x65536x2.rank)
  reducesTo_S256x65536x2_S_d0_1_2 : S256x65536x2.ReducesTo [0, 1, 2] S_
  h_S_ : 0 < S_.numel

variable [Facts]

def fn {F : FTy → Type} [FloatOps F] (main_arg0 : FVec F S256x65536x2 .f32) (main_arg1 : FVec F S256x65536x2 .f32) : IVec S_ 1 :=
  let main_v0 : FVec F S256x65536x2 .f32 := Host.absf main_arg0
  let main_cst : FVec F S_ .f32 := constant S_ .f32 0x7F800000#32
  let main_v1 : FVec F S256x65536x2 .f32 := broadcastInDim S256x65536x2 ![] bcast_S_S256x65536x2 main_cst
  let main_v2 : IVec S256x65536x2 1 := cmpf .olt main_v0 main_v1
  let main_c : IVec S_ 1 := constantI S_ 1 1#1
  let main_v3 : IVec S_ 1 := (fun x v => Host.reduce IntOp.andi x v reducesTo_S256x65536x2_S_d0_1_2 h_S_) main_v2 main_c
  let main_v4 : FVec F S256x65536x2 .f32 := Host.absf main_arg1
  let main_cst_0 : FVec F S_ .f32 := constant S_ .f32 0x7F800000#32
  let main_v5 : FVec F S256x65536x2 .f32 := broadcastInDim S256x65536x2 ![] bcast_S_S256x65536x2 main_cst_0
  let main_v6 : IVec S256x65536x2 1 := cmpf .olt main_v4 main_v5
  let main_c_1 : IVec S_ 1 := constantI S_ 1 1#1
  let main_v7 : IVec S_ 1 := (fun x v => Host.reduce IntOp.andi x v reducesTo_S256x65536x2_S_d0_1_2 h_S_) main_v6 main_c_1
  let main_v8 : IVec S_ 1 := andi main_v3 main_v7
  main_v8
-- ==== Kernel.lean ====
abbrev S256x65536x2 : Shape := ⟨3, ![256, 65536, 2]⟩
abbrev S2x256x65536 : Shape := ⟨3, ![2, 256, 65536]⟩
abbrev S256x131072 : Shape := ⟨2, ![256, 131072]⟩
abbrev S2x8x65536 : Shape := ⟨3, ![2, 8, 65536]⟩
abbrev S8x131072 : Shape := ⟨2, ![8, 131072]⟩
abbrev S1x8x65536 : Shape := ⟨3, ![1, 8, 65536]⟩
abbrev S8x65536 : Shape := ⟨2, ![8, 65536]⟩

abbrev nBuf : Space → Nat
  | .hbm => 6
  | .vmem => 6
  | .smem => 0
  | _ => 0

abbrev bufTy : (tb : Table) → Fin (tcTables nBuf tb) → BufTy
  | .hbm, ⟨0, _⟩ => ⟨S256x65536x2, .f32⟩
  | .hbm, ⟨1, _⟩ => ⟨S256x65536x2, .f32⟩
  | .hbm, ⟨2, _⟩ => ⟨S2x256x65536, .f32⟩
  | .hbm, ⟨3, _⟩ => ⟨S2x256x65536, .f32⟩
  | .hbm, ⟨4, _⟩ => ⟨S256x131072, .f32⟩
  | .hbm, ⟨5, _⟩ => ⟨S256x65536x2, .f32⟩
  | .local _ .vmem, ⟨0, _⟩ => ⟨S2x8x65536, .f32⟩
  | .local _ .vmem, ⟨1, _⟩ => ⟨S2x8x65536, .f32⟩
  | .local _ .vmem, ⟨2, _⟩ => ⟨S2x8x65536, .f32⟩
  | .local _ .vmem, ⟨3, _⟩ => ⟨S2x8x65536, .f32⟩
  | .local _ .vmem, ⟨4, _⟩ => ⟨S8x131072, .f32⟩
  | .local _ .vmem, ⟨5, _⟩ => ⟨S8x131072, .f32⟩
  | _, _ => ⟨S256x65536x2, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2x8x65536 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2x8x65536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x131072 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  transposes_S256x65536x2_S2x256x65536_2_0_1 : S256x65536x2.Transposes [2, 0, 1] S2x256x65536
  inb_S2x8x65536_S1x8x65536_0_0_0 : ∀ a, (![0, 0, 0] : Fin 3 → Nat) a + S1x8x65536.size a ≤ S2x8x65536.size a
  h_S1x8x65536 : 0 < S1x8x65536.numel
  shapeCasts_S1x8x65536_S8x65536 : S1x8x65536.ShapeCasts S8x65536
  inb_S2x8x65536_S1x8x65536_1_0_0 : ∀ a, (![1, 0, 0] : Fin 3 → Nat) a + S1x8x65536.size a ≤ S2x8x65536.size a
  inb_S8x131072_S8x65536_0_0 : ∀ a, (![0, 0] : Fin 2 → Nat) a + S8x65536.size a ≤ S8x131072.size a
  h_S8x65536 : 0 < S8x65536.numel
  inb_S8x131072_S8x65536_0_65536 : ∀ a, (![0, 65536] : Fin 2 → Nat) a + S8x65536.size a ≤ S8x131072.size a
  shapeCasts_S256x131072_S256x65536x2 : S256x131072.ShapeCasts S256x65536x2
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2x8x65536.size a ≤ S2x256x65536.size a
  hwx0_0 : ∀ i : grid0.Coords, EltTy.bits .f32 = 32 ∨ (Rect.block (s := S2x256x65536) S2x8x65536.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2x8x65536.size a ≤ S2x256x65536.size a
  hwx0_1 : ∀ i : grid0.Coords, EltTy.bits .f32 = 32 ∨ (Rect.block (s := S2x256x65536) S2x8x65536.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x131072.size a ≤ S256x131072.size a
  hwx0_2 : ∀ i : grid0.Coords, EltTy.bits .f32 = 32 ∨ (Rect.block (s := S256x131072) S8x131072.size (cc0_transform_2 i) (hinb0_2 i)).WholeWords (EltTy.packing .f32)

variable [Facts₀]

abbrev win0_0 : Pipeline.Window sig grid0 :=
  Pipeline.Window.ofSpec (Memref.whole main_v0) S2x8x65536.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S2x8x65536.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S8x131072.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S256x65536x2 : Shape := ⟨3, ![256, 65536, 2]⟩
abbrev S256x65536x1 : Shape := ⟨3, ![256, 65536, 1]⟩
abbrev S256x65536 : Shape := ⟨2, ![256, 65536]⟩
abbrev S256x131072 : Shape := ⟨2, ![256, 131072]⟩

abbrev nBuf : Space → Nat
  | .hbm => 26
  | .vmem => 0
  | .smem => 0
  | _ => 0

abbrev bufTy : (tb : Table) → Fin (tcTables nBuf tb) → BufTy
  | .hbm, ⟨0, _⟩ => ⟨S256x65536x2, .f32⟩
  | .hbm, ⟨1, _⟩ => ⟨S256x65536x2, .f32⟩
  | .hbm, ⟨2, _⟩ => ⟨S256x65536x1, .f32⟩
  | .hbm, ⟨3, _⟩ => ⟨S256x65536, .f32⟩
  | .hbm, ⟨4, _⟩ => ⟨S256x65536x1, .f32⟩
  | .hbm, ⟨5, _⟩ => ⟨S256x65536, .f32⟩
  | .hbm, ⟨6, _⟩ => ⟨S256x65536, .f32⟩
  | .hbm, ⟨7, _⟩ => ⟨S256x65536x1, .f32⟩
  | .hbm, ⟨8, _⟩ => ⟨S256x65536, .f32⟩
  | .hbm, ⟨9, _⟩ => ⟨S256x65536x1, .f32⟩
  | .hbm, ⟨10, _⟩ => ⟨S256x65536, .f32⟩
  | .hbm, ⟨11, _⟩ => ⟨S256x65536, .f32⟩
  | .hbm, ⟨12, _⟩ => ⟨S256x65536, .f32⟩
  | .hbm, ⟨13, _⟩ => ⟨S256x65536x1, .f32⟩
  | .hbm, ⟨14, _⟩ => ⟨S256x65536, .f32⟩
  | .hbm, ⟨15, _⟩ => ⟨S256x65536x1, .f32⟩
  | .hbm, ⟨16, _⟩ => ⟨S256x65536, .f32⟩
  | .hbm, ⟨17, _⟩ => ⟨S256x65536, .f32⟩
  | .hbm, ⟨18, _⟩ => ⟨S256x65536x1, .f32⟩
  | .hbm, ⟨19, _⟩ => ⟨S256x65536, .f32⟩
  | .hbm, ⟨20, _⟩ => ⟨S256x65536x1, .f32⟩
  | .hbm, ⟨21, _⟩ => ⟨S256x65536, .f32⟩
  | .hbm, ⟨22, _⟩ => ⟨S256x65536, .f32⟩
  | .hbm, ⟨23, _⟩ => ⟨S256x65536, .f32⟩
  | .hbm, ⟨24, _⟩ => ⟨S256x131072, .f32⟩
  | .hbm, ⟨25, _⟩ => ⟨S256x65536x2, .f32⟩
  | _, _ => ⟨S256x65536x2, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_v17 : Ref sig .tc := ⟨.hbm, 19, rfl⟩
abbrev main_v18 : Ref sig .tc := ⟨.hbm, 20, rfl⟩
abbrev main_v19 : Ref sig .tc := ⟨.hbm, 21, rfl⟩
abbrev main_v20 : Ref sig .tc := ⟨.hbm, 22, rfl⟩
abbrev main_v21 : Ref sig .tc := ⟨.hbm, 23, rfl⟩
abbrev main_v22 : Ref sig .tc := ⟨.hbm, 24, rfl⟩
abbrev main_v23 : Ref sig .tc := ⟨.hbm, 25, rfl⟩

abbrev nD : Nat := 1
abbrev τ : Topo := Topo.v7x

variable {F : FTy → Type} [FloatOps F]

class Facts₀ : Prop where
  slices_S256x65536x2_S256x65536x1_0_0_0 : S256x65536x2.Slices ![0, 0, 0] S256x65536x1
  shapeCasts_S256x65536x1_S256x65536 : S256x65536x1.ShapeCasts S256x65536
  slices_S256x65536x2_S256x65536x1_0_0_1 : S256x65536x2.Slices ![0, 0, 1] S256x65536x1
  concatenates_S256x65536_S256x65536_S256x131072_d1 : Shape.Concatenates [S256x65536, S256x65536] S256x131072 1
  shapeCasts_S256x131072_S256x65536x2 : S256x131072.ShapeCasts S256x65536x2

variable [Facts₀]

class Facts : Prop extends Facts₀ where

variable [Facts]
-- ==== Proof.PairProduct.lean ====
/-
  The complex product of two arrays of (real, imaginary) pairs, with each row's products laid out as all the real
  parts followed by all the imaginary parts.

  An argument is 256 rows of 65536 pairs, a pair's real part at last coordinate 0 and its imaginary part at 1. For
  pairs (a, b) and (c, d) the product is (a·c − b·d, b·c + a·d). Row `r` of the result holds, at position `n` below
  65536, the real part of the product of the two `n`-th pairs of row `r`, and at position `65536 + n` its imaginary part.
  Both programs compute exactly these two expressions, with the same operations in the same order, so the function is
  stated once here, for any reading of the float operations; no law of arithmetic is needed to compare them.
-/
import Idealize.ShloMosaic.PureOps
import Idealize.ShloMosaic.Lib.ValueIdx

noncomputable section

namespace Cert.PairProduct

open Idealize.ShloMosaic Idealize.ShloMosaic.ValueIdx

variable {F : FTy → Type} [FloatOps F]

/-- 256 rows of 65536 (real, imaginary) pairs. -/
abbrev Pairs : Shape := ⟨3, ![256, 65536, 2]⟩
/-- 256 rows, each 65536 real parts followed by 65536 imaginary parts. -/
abbrev Halves : Shape := ⟨2, ![256, 131072]⟩

/-- The real part of the product of the `n`-th pairs of row `r`: a·c − b·d. -/
def realPart (x y : Pairs.Idx → Elt F .f32) (r : Fin 256) (n : Fin 65536) : Elt F .f32 :=
  FloatOps.subf (FloatOps.mulf (x (ix3 r n (0 : Fin 2))) (y (ix3 r n (0 : Fin 2))))
    (FloatOps.mulf (x (ix3 r n (1 : Fin 2))) (y (ix3 r n (1 : Fin 2))))

/-- Its imaginary part: b·c + a·d. -/
def imagPart (x y : Pairs.Idx → Elt F .f32) (r : Fin 256) (n : Fin 65536) : Elt F .f32 :=
  FloatOps.addf (FloatOps.mulf (x (ix3 r n (1 : Fin 2))) (y (ix3 r n (0 : Fin 2))))
    (FloatOps.mulf (x (ix3 r n (0 : Fin 2))) (y (ix3 r n (1 : Fin 2))))

/-- The products of a row, real parts first: position `n < 65536` is the real part of pair `n`, position
    `65536 + n` the imaginary part of pair `n`. -/
def halves (x y : Pairs.Idx → Elt F .f32) : Halves.Idx → Elt F .f32 := fun j =>
  if h : (j 1).val < 65536 then realPart x y (j 0) ⟨(j 1).val, h⟩
  else imagPart x y (j 0) ⟨(j 1).val - 65536, by have h1 : (j 1).val < 131072 := (j 1).isLt; omega⟩

theorem halves_of_lt (x y : Pairs.Idx → Elt F .f32) (j : Halves.Idx) (r : Fin 256) (n : Fin 65536)
    (hr : (j 0).val = r.val) (hn : (j 1).val = n.val) : halves x y j = realPart x y r n := by
  have h : (j 1).val < 65536 := by rw [hn]; exact n.isLt
  unfold halves
  rw [dif_pos h]
  exact congrArg₂ (realPart x y) (Fin.ext hr) (Fin.ext hn)

theorem halves_of_ge (x y : Pairs.Idx → Elt F .f32) (j : Halves.Idx) (r : Fin 256) (n : Fin 65536)
    (hr : (j 0).val = r.val) (hn : (j 1).val = 65536 + n.val) : halves x y j = imagPart x y r n := by
  have h : ¬ (j 1).val < 65536 := by rw [hn]; omega
  unfold halves
  rw [dif_neg h]
  exact congrArg₂ (imagPart x y) (Fin.ext hr) (Fin.ext (by show (j 1).val - 65536 = n.val; omega))

end Cert.PairProduct

end
-- ==== Proof.ReferenceHalves.lean ====
/-
  What the reference leaves before its last reshape is the product laid out in halves.

  The reference cuts each argument into its plane of real parts (last coordinate 0) and its plane of imaginary parts
  (last coordinate 1), each viewed as 256 rows of 65536 numbers, forms a·c − b·d and b·c + a·d entry by entry, and
  joins the two results along the rows: real parts first. Read at an index this is `PairProduct.halves` of the
  arguments: position `n < 65536` of a row falls in the first joined piece, position `65536 + n` in the second, and entry
  (r, n) of a plane is the argument at (r, n, 0) or (r, n, 1).
-/
import proofs.«118073_j68186900791724_2_alg».proof.Proof.Gen.ReferenceIdeal.Read
import proofs.«118073_j68186900791724_2_alg».proof.Proof.PairProduct

noncomputable section

namespace Cert.ReferenceIdeal.Halves

open Cert.ReferenceIdeal Cert.ReferenceIdeal.Gen Cert.ReferenceIdeal.Read Idealize.ShloMosaic Idealize.ShloMosaic.ValueIdx Cert.PairProduct

variable {F : FTy → Type} [FloatOps F]

/-- Entry (r, n) of the plane of real parts is the argument at (r, n, 0): the slice keeps last coordinate 0, and dropping
    that unit axis keeps the row and the position. -/
theorem real_plane_index (r : Fin 256) (n : Fin 65536) : idx_main_v0 (idx_main_v1 (ix2 r n)) = ix3 r n (0 : Fin 2) := by
  have hr : r.val < 256 := r.isLt
  have hn : n.val < 65536 := n.isLt
  funext a; apply Fin.ext
  match a with
  | ⟨0, _⟩ => show (r.val * 65536 + n.val) / 65536 = r.val; omega
  | ⟨1, _⟩ => show (r.val * 65536 + n.val) / 1 % 65536 = n.val; omega
  | ⟨2, _⟩ => rfl

/-- Entry (r, n) of the plane of imaginary parts is the argument at (r, n, 1). -/
theorem imag_plane_index (r : Fin 256) (n : Fin 65536) : idx_main_v5 (idx_main_v6 (ix2 r n)) = ix3 r n (1 : Fin 2) := by
  have hr : r.val < 256 := r.isLt
  have hn : n.val < 65536 := n.isLt
  funext a; apply Fin.ext
  match a with
  | ⟨0, _⟩ => show (r.val * 65536 + n.val) / 65536 = r.val; omega
  | ⟨1, _⟩ => show (r.val * 65536 + n.val) / 1 % 65536 = n.val; omega
  | ⟨2, _⟩ => rfl

/-- The first joined piece, a·c − b·d of the planes, at (r, n) is the real part of the product of the n-th pairs of row r. -/
theorem real_piece (x y : (⟨S256x65536x2, .f32⟩ : BufTy).Contents (Elt F)) (r : Fin 256) (n : Fin 65536) :
    val_main_v10 (F := F) x y (ix2 r n) = realPart x y r n := by
  rw [val_main_v10_apply, val_main_v4_apply, val_main_v9_apply, val_main_v1_apply, val_main_v3_apply, val_main_v6_apply,
    val_main_v8_apply, val_main_v0_apply, val_main_v2_apply, val_main_v5_apply, val_main_v7_apply]
  show FloatOps.subf (FloatOps.mulf (x (idx_main_v0 (idx_main_v1 (ix2 r n)))) (y (idx_main_v0 (idx_main_v1 (ix2 r n)))))
      (FloatOps.mulf (x (idx_main_v5 (idx_main_v6 (ix2 r n)))) (y (idx_main_v5 (idx_main_v6 (ix2 r n))))) = _
  rw [real_plane_index, imag_plane_index]
  rfl

/-- The second joined piece, b·c + a·d of the planes, at (r, n) is the imaginary part of that product. -/
theorem imag_piece (x y : (⟨S256x65536x2, .f32⟩ : BufTy).Contents (Elt F)) (r : Fin 256) (n : Fin 65536) :
    val_main_v21 (F := F) x y (ix2 r n) = imagPart x y r n := by
  rw [val_main_v21_apply, val_main_v15_apply, val_main_v20_apply, val_main_v12_apply, val_main_v14_apply, val_main_v17_apply,
    val_main_v19_apply, val_main_v11_apply, val_main_v13_apply, val_main_v16_apply, val_main_v18_apply]
  show FloatOps.addf (FloatOps.mulf (x (idx_main_v5 (idx_main_v6 (ix2 r n)))) (y (idx_main_v0 (idx_main_v1 (ix2 r n)))))
      (FloatOps.mulf (x (idx_main_v0 (idx_main_v1 (ix2 r n)))) (y (idx_main_v5 (idx_main_v6 (ix2 r n))))) = _
  rw [real_plane_index, imag_plane_index]
  rfl

/-- The two pieces joined along the rows are the product laid out in halves. -/
theorem joined_eq (x y : (⟨S256x65536x2, .f32⟩ : BufTy).Contents (Elt F)) :
    val_main_v22 (F := F) x y = halves x y := by
  funext j
  obtain ⟨r, q, rfl⟩ : ∃ (r : Fin 256) (q : Fin 131072), j = ix2 r q := ⟨j 0, j 1, eq_ix2 j⟩
  have hq : q.val < 131072 := q.isLt
  unfold val_main_v22
  by_cases h : q.val < 65536
  · refine (concatenate_pair_apply_left (t := S256x131072) (s₁ := S256x65536) (s₂ := S256x65536) (1 : Fin 2) _ _
      concatenates_S256x65536_S256x65536_S256x131072_d1 (ix2 r q) rfl
      (ix2 r (⟨q.val, h⟩ : Fin 65536)) ?_).trans ?_
    · intro b
      match b with
      | ⟨0, _⟩ => rfl
      | ⟨1, _⟩ => rfl
    · rw [halves_of_lt x y (ix2 r q) r ⟨q.val, h⟩ rfl rfl]
      exact real_piece x y r ⟨q.val, h⟩
  · have h' : q.val - 65536 < 65536 := by omega
    refine (concatenate_pair_apply_right (t := S256x131072) (s₁ := S256x65536) (s₂ := S256x65536) (1 : Fin 2) _ _
      concatenates_S256x65536_S256x65536_S256x131072_d1 (ix2 r q) rfl rfl
      (ix2 r (⟨q.val - 65536, h'⟩ : Fin 65536)) ?_ ?_).trans ?_
    · intro b hb
      have hlt : b.val < 2 := b.isLt
      have hne : b.val ≠ 1 := fun e => hb (Fin.ext e)
      obtain rfl : b = (⟨0, by decide⟩ : Fin 2) := Fin.ext (by show b.val = 0; omega)
      rfl
    · show q.val - 65536 + 65536 = q.val
      omega
    · rw [halves_of_ge x y (ix2 r q) r ⟨q.val - 65536, h'⟩ rfl (by show q.val = 65536 + (q.val - 65536); omega)]
      exact imag_piece x y r ⟨q.val - 65536, h'⟩

end Cert.ReferenceIdeal.Halves

end
-- ==== Proof.BlockHalves.lean ====
/-
  What one run of the kernel body leaves in its output block, from its two input blocks.

  An input block holds, for 8 rows, the plane of real parts (first coordinate 0) and the plane of imaginary parts
  (first coordinate 1) of an argument, each 8 rows of 65536 numbers. The body loads the four planes, forms a·c − b·d and
  b·c + a·d entry by entry, and stores the first into columns 0 … 65535 of the 8 × 131072 output block and the second
  into columns 65536 … 131071. The two stores tile the block, so the block ends as ONE function of its index: column
  `n < 65536` of row `r` holds the real part of the product of the planes' entries (r, n), column `65536 + n` its
  imaginary part.
-/
import proofs.«118073_j68186900791724_2_alg».proof.Proof.Gen.KernelIdeal.Frame
import Idealize.ShloMosaic.Lib.Pipeline.Value
import Idealize.ShloMosaic.Lib.ValueIdx

noncomputable section

namespace Cert.KernelIdeal.Block

open Cert.KernelIdeal Cert.KernelIdeal.Gen Idealize.ShloMosaic Idealize.ShloMosaic.ValueIdx

variable {F : FTy → Type} [FloatOps F]

/-- a·c − b·d of the planes' entries (r, n). -/
def blockReal (X Y : Vec F S2x8x65536 .f32) (r : Fin 8) (n : Fin 65536) : Elt F .f32 :=
  FloatOps.subf (FloatOps.mulf (X (ix3 (0 : Fin 2) r n)) (Y (ix3 (0 : Fin 2) r n)))
    (FloatOps.mulf (X (ix3 (1 : Fin 2) r n)) (Y (ix3 (1 : Fin 2) r n)))

/-- b·c + a·d of the planes' entries (r, n). -/
def blockImag (X Y : Vec F S2x8x65536 .f32) (r : Fin 8) (n : Fin 65536) : Elt F .f32 :=
  FloatOps.addf (FloatOps.mulf (X (ix3 (1 : Fin 2) r n)) (Y (ix3 (0 : Fin 2) r n)))
    (FloatOps.mulf (X (ix3 (0 : Fin 2) r n)) (Y (ix3 (1 : Fin 2) r n)))

/-- The output block: real parts in the first 65536 columns, imaginary parts in the last 65536. -/
def blockHalves (X Y : Vec F S2x8x65536 .f32) : Vec F S8x131072 .f32 := fun j =>
  if h : (j 1).val < 65536 then blockReal X Y (j 0) ⟨(j 1).val, h⟩
  else blockImag X Y (j 0) ⟨(j 1).val - 65536, by have h1 : (j 1).val < 131072 := (j 1).isLt; omega⟩

theorem blockHalves_of_lt (X Y : Vec F S2x8x65536 .f32) (j : S8x131072.Idx) (r : Fin 8) (n : Fin 65536)
    (hr : (j 0).val = r.val) (hn : (j 1).val = n.val) : blockHalves X Y j = blockReal X Y r n := by
  have h : (j 1).val < 65536 := by rw [hn]; exact n.isLt
  unfold blockHalves
  rw [dif_pos h]
  exact congrArg₂ (blockReal X Y) (Fin.ext hr) (Fin.ext hn)

theorem blockHalves_of_ge (X Y : Vec F S2x8x65536 .f32) (j : S8x131072.Idx) (r : Fin 8) (n : Fin 65536)
    (hr : (j 0).val = r.val) (hn : (j 1).val = 65536 + n.val) : blockHalves X Y j = blockImag X Y r n := by
  have h : ¬ (j 1).val < 65536 := by rw [hn]; omega
  unfold blockHalves
  rw [dif_neg h]
  exact congrArg₂ (blockImag X Y) (Fin.ext hr) (Fin.ext (by show (j 1).val - 65536 = n.val; omega))

/-- A loaded plane, 1 × 8 × 65536, viewed as 8 × 65536: entry (r, n) is the plane's entry (0, r, n). -/
theorem dropUnit_at (v : Vec F S1x8x65536 .f32) (r : Fin 8) (n : Fin 65536) :
    shapeCast S8x65536 v shapeCasts_S1x8x65536_S8x65536 (ix2 r n) = v (ix3 (0 : Fin 1) r n) :=
  shapeCast_apply v shapeCasts_S1x8x65536_S8x65536 (ix2 r n) (ix3 (0 : Fin 1) r n) (by
    rw [Shape.rowMajor_val_three, Shape.rowMajor_val_two]
    show (0 * 8 + r.val) * 65536 + n.val = r.val * 65536 + n.val
    omega)

/-- The load of the plane of real parts reads the block at first coordinate 0. -/
theorem ld_real (X : Vec F S2x8x65536 .f32) (r : Fin 8) (n : Fin 65536) :
    View.ld X r0_0 (ix3 (0 : Fin 1) r n) = X (ix3 (0 : Fin 2) r n) :=
  congrArg X (funext fun a => Fin.ext (by
    match a with
    | ⟨0, _⟩ => show 0 + 1 * 0 = 0; omega
    | ⟨1, _⟩ => show 0 + 1 * r.val = r.val; omega
    | ⟨2, _⟩ => show 0 + 1 * n.val = n.val; omega))

/-- The load of the plane of imaginary parts reads the block at first coordinate 1. -/
theorem ld_imag (X : Vec F S2x8x65536 .f32) (r : Fin 8) (n : Fin 65536) :
    View.ld X r0_1 (ix3 (0 : Fin 1) r n) = X (ix3 (1 : Fin 2) r n) :=
  congrArg X (funext fun a => Fin.ext (by
    match a with
    | ⟨0, _⟩ => show 1 + 1 * 0 = 1; omega
    | ⟨1, _⟩ => show 0 + 1 * r.val = r.val; omega
    | ⟨2, _⟩ => show 0 + 1 * n.val = n.val; omega))

/-- The value stored into the first 65536 columns, at (r, n). -/
theorem real_store (X Y : Vec F S2x8x65536 .f32) (r : Fin 8) (n : Fin 65536) :
    k0_pay5 (View.ld X r0_0) (View.ld X r0_1) (View.ld Y r0_0) (View.ld Y r0_1) (ix2 r n) = blockReal X Y r n := by
  show FloatOps.subf
      (FloatOps.mulf (shapeCast S8x65536 (View.ld X r0_0) shapeCasts_S1x8x65536_S8x65536 (ix2 r n))
        (shapeCast S8x65536 (View.ld Y r0_0) shapeCasts_S1x8x65536_S8x65536 (ix2 r n)))
      (FloatOps.mulf (shapeCast S8x65536 (View.ld X r0_1) shapeCasts_S1x8x65536_S8x65536 (ix2 r n))
        (shapeCast S8x65536 (View.ld Y r0_1) shapeCasts_S1x8x65536_S8x65536 (ix2 r n))) = _
  rw [dropUnit_at, dropUnit_at, dropUnit_at, dropUnit_at, ld_real, ld_real, ld_imag, ld_imag]
  rfl

/-- The value stored into the last 65536 columns, at (r, n). -/
theorem imag_store (X Y : Vec F S2x8x65536 .f32) (r : Fin 8) (n : Fin 65536) :
    k0_pay6 (View.ld X r0_0) (View.ld X r0_1) (View.ld Y r0_0) (View.ld Y r0_1) (ix2 r n) = blockImag X Y r n := by
  show FloatOps.addf
      (FloatOps.mulf (shapeCast S8x65536 (View.ld X r0_1) shapeCasts_S1x8x65536_S8x65536 (ix2 r n))
        (shapeCast S8x65536 (View.ld Y r0_0) shapeCasts_S1x8x65536_S8x65536 (ix2 r n)))
      (FloatOps.mulf (shapeCast S8x65536 (View.ld X r0_0) shapeCasts_S1x8x65536_S8x65536 (ix2 r n))
        (shapeCast S8x65536 (View.ld Y r0_1) shapeCasts_S1x8x65536_S8x65536 (ix2 r n))) = _
  rw [dropUnit_at, dropUnit_at, dropUnit_at, dropUnit_at, ld_real, ld_real, ld_imag, ld_imag]
  rfl

/-- The output block after the body is `blockHalves` of the input blocks: each store's value at its local index is
    `blockHalves` at the index the store's rectangle places it at, and the two rectangles cover the block. -/
theorem out_eq (X Y : Vec F S2x8x65536 .f32) : out0_2 X Y = blockHalves X Y := by
  funext j
  unfold out0_2
  refine View.canon_apply_of_pieces (blockHalves X Y) _ ?_ j (cover0_2 _ _ j)
  intro p hp x
  simp only [List.mem_cons, List.mem_nil_iff, or_false] at hp
  rcases hp with rfl | rfl
  · obtain ⟨r, n, rfl⟩ : ∃ (r : Fin 8) (n : Fin 65536), x = ix2 r n := ⟨x 0, x 1, eq_ix2 x⟩
    rw [blockHalves_of_ge X Y _ r n (by show 0 + 1 * r.val = r.val; omega) (by show 65536 + 1 * n.val = 65536 + n.val; omega)]
    exact imag_store X Y r n
  · obtain ⟨r, n, rfl⟩ : ∃ (r : Fin 8) (n : Fin 65536), x = ix2 r n := ⟨x 0, x 1, eq_ix2 x⟩
    rw [blockHalves_of_lt X Y _ r n (by show 0 + 1 * r.val = r.val; omega) (by show 0 + 1 * n.val = n.val; omega)]
    exact real_store X Y r n

end Cert.KernelIdeal.Block

end
-- ==== Proof.KernelHalves.lean ====
/-
  What the kernel's program leaves in its result: the product laid out in halves, reshaped into pairs.

  Before the launch each argument (256 rows of 65536 pairs) is transposed into its two planes: entry (p, r, n) of the
  plane array is the argument at (r, n, p). Grid point `t` of the 32 works on rows 8t … 8t + 7: its two input blocks are
  those rows of both planes of each argument, and its output block is those rows of the 256 × 131072 array. What the
  body leaves there (`Block.blockHalves`) is therefore `PairProduct.halves` of the arguments read through the output
  block: row `r` of the block is row `8t + r` of the array, and the planes' entries (r, n) are the arguments' pairs
  (8t + r, n). The 32 output blocks tile the array (row `i` lies in block `i / 8`), so the array ends holding `halves`
  everywhere, and the one line after the launch reshapes it into 256 × 65536 × 2.
-/
import proofs.«118073_j68186900791724_2_alg».proof.Proof.Gen.KernelIdeal.Frame
import proofs.«118073_j68186900791724_2_alg».proof.Proof.PairProduct
import proofs.«118073_j68186900791724_2_alg».proof.Proof.BlockHalves
import Idealize.ShloMosaic.Lib.Pipeline.Value
import Idealize.ShloMosaic.Lib.ValueIdx
import Idealize.ShloMosaic.Lib.StableHlo.Run

noncomputable section

namespace Cert.KernelIdeal.Whole

open Cert.KernelIdeal Cert.KernelIdeal.Gen Idealize.ShloMosaic Idealize.ShloMosaic.TcCoe Idealize.SL.Sem
open Idealize.ShloMosaic.ValueIdx Cert.PairProduct Cert.KernelIdeal.Block
open Idealize.ShloMosaic.Pipeline (Dat)

variable {F : FTy → Type} [FloatOps F]
variable (m : (ℓ : Loc nD τ sig) → Buf (Elt F) ℓ) (ρ : Dev nD → PrngReg)

/-! ## The plane arrays the launch finds -/

/-- The first argument's plane array is its transpose, pairs' coordinate first. -/
theorem planes0 (c : Dev nD) : (V m c main_v0 : S2x256x65536.Idx → Elt F .f32)
    = transpose S2x256x65536 [2, 0, 1] (m ((c : Thread nD τ).loc main_arg0)) transposes_S256x65536x2_S2x256x65536_2_0_1 := by
  show StableHlo.after hostOps0 (fun b => m (c, b)) (Proc.devRef .tc main_v0) = _
  after_results

/-- The second argument's likewise. -/
theorem planes1 (c : Dev nD) : (V m c main_v1 : S2x256x65536.Idx → Elt F .f32)
    = transpose S2x256x65536 [2, 0, 1] (m ((c : Thread nD τ).loc main_arg1)) transposes_S256x65536x2_S2x256x65536_2_0_1 := by
  show StableHlo.after hostOps0 (fun b => m (c, b)) (Proc.devRef .tc main_v1) = _
  after_results

/-- Entry (p, r, n) of the first plane array is the first argument at (r, n, p). -/
theorem planes0_at (c : Dev nD) (p : Fin 2) (r : Fin 256) (n : Fin 65536) :
    (V m c main_v0 : S2x256x65536.Idx → Elt F .f32) (ix3 p r n)
      = (m ((c : Thread nD τ).loc main_arg0) : S256x65536x2.Idx → Elt F .f32) (ix3 r n p) := by
  rw [planes0]
  exact transpose_apply [2, 0, 1] _ transposes_S256x65536x2_S2x256x65536_2_0_1 (ix3 p r n) (ix3 r n p) (fun a =>
    match a with
    | ⟨0, _⟩ => rfl
    | ⟨1, _⟩ => rfl
    | ⟨2, _⟩ => rfl)

/-- Entry (p, r, n) of the second plane array is the second argument at (r, n, p). -/
theorem planes1_at (c : Dev nD) (p : Fin 2) (r : Fin 256) (n : Fin 65536) :
    (V m c main_v1 : S2x256x65536.Idx → Elt F .f32) (ix3 p r n)
      = (m ((c : Thread nD τ).loc main_arg1) : S256x65536x2.Idx → Elt F .f32) (ix3 r n p) := by
  rw [planes1]
  exact transpose_apply [2, 0, 1] _ transposes_S256x65536x2_S2x256x65536_2_0_1 (ix3 p r n) (ix3 r n p) (fun a =>
    match a with
    | ⟨0, _⟩ => rfl
    | ⟨1, _⟩ => rfl
    | ⟨2, _⟩ => rfl)

/-! ## The blocks of a grid point -/

/-- The printed index maps over the 32 grid points: point `t` takes block `t` along the rows of each array and block 0
    along every other axis. -/
theorem index_facts : ∀ t : Fin cfg0.N, win0_0.index t (0 : Fin 3) = 0 ∧ win0_0.index t (1 : Fin 3) = t.val
    ∧ win0_0.index t (2 : Fin 3) = 0 ∧ win0_1.index t (0 : Fin 3) = 0 ∧ win0_1.index t (1 : Fin 3) = t.val
    ∧ win0_1.index t (2 : Fin 3) = 0 ∧ win0_2.index t (0 : Fin 2) = t.val ∧ win0_2.index t (1 : Fin 2) = 0 :=
  (by decide +kernel : ∀ t : Fin grid0.N, _)

/-- Entry (p, r, n) of the first input block at point `t` is the first argument at (8t + r, n, p). -/
theorem block0_at (c : Dev nD) (t : Fin cfg0.N) (p : Fin 2) (r : Fin 8) (n : Fin 65536) (b : Fin 256)
    (hb : b.val = t.val * 8 + r.val) :
    (iblk m c 0 t : Vec F S2x8x65536 .f32) (ix3 p r n)
      = (m ((c : Thread nD τ).loc main_arg0) : S256x65536x2.Idx → Elt F .f32) (ix3 b n p) := by
  obtain ⟨e0, e1, e2, -⟩ := index_facts t
  unfold iblk
  rw [View.read_apply]
  show V m c main_v0 _ = _
  refine Eq.trans (congrArg (V m c main_v0) ?_) (planes0_at m c p b n)
  funext a; apply Fin.ext
  match a with
  | ⟨0, _⟩ => show win0_0.index t (0 : Fin 3) * 2 + 1 * p.val = p.val; rw [e0]; omega
  | ⟨1, _⟩ => show win0_0.index t (1 : Fin 3) * 8 + 1 * r.val = b.val; rw [e1, hb]; omega
  | ⟨2, _⟩ => show win0_0.index t (2 : Fin 3) * 65536 + 1 * n.val = n.val; rw [e2]; omega

/-- Entry (p, r, n) of the second input block at point `t` is the second argument at (8t + r, n, p). -/
theorem block1_at (c : Dev nD) (t : Fin cfg0.N) (p : Fin 2) (r : Fin 8) (n : Fin 65536) (b : Fin 256)
    (hb : b.val = t.val * 8 + r.val) :
    (iblk m c 1 t : Vec F S2x8x65536 .f32) (ix3 p r n)
      = (m ((c : Thread nD τ).loc main_arg1) : S256x65536x2.Idx → Elt F .f32) (ix3 b n p) := by
  obtain ⟨-, -, -, e0, e1, e2, -⟩ := index_facts t
  unfold iblk
  rw [View.read_apply]
  show V m c main_v1 _ = _
  refine Eq.trans (congrArg (V m c main_v1) ?_) (planes1_at m c p b n)
  funext a; apply Fin.ext
  match a with
  | ⟨0, _⟩ => show win0_1.index t (0 : Fin 3) * 2 + 1 * p.val = p.val; rw [e0]; omega
  | ⟨1, _⟩ => show win0_1.index t (1 : Fin 3) * 8 + 1 * r.val = b.val; rw [e1, hb]; omega
  | ⟨2, _⟩ => show win0_1.index t (2 : Fin 3) * 65536 + 1 * n.val = n.val; rw [e2]; omega

/-- The block's real parts at (r, n) are the arguments' at (8t + r, n). -/
theorem blockReal_at (c : Dev nD) (t : Fin cfg0.N) (r : Fin 8) (n : Fin 65536) (b : Fin 256) (hb : b.val = t.val * 8 + r.val) :
    blockReal (iblk m c 0 t) (iblk m c 1 t) r n
      = Cert.PairProduct.realPart (m ((c : Thread nD τ).loc main_arg0)) (m ((c : Thread nD τ).loc main_arg1)) b n := by
  unfold blockReal Cert.PairProduct.realPart
  exact congrArg₂ FloatOps.subf
    (congrArg₂ FloatOps.mulf (block0_at m c t 0 r n b hb) (block1_at m c t 0 r n b hb))
    (congrArg₂ FloatOps.mulf (block0_at m c t 1 r n b hb) (block1_at m c t 1 r n b hb))

/-- The block's imaginary parts at (r, n) are the arguments' at (8t + r, n). -/
theorem blockImag_at (c : Dev nD) (t : Fin cfg0.N) (r : Fin 8) (n : Fin 65536) (b : Fin 256) (hb : b.val = t.val * 8 + r.val) :
    blockImag (iblk m c 0 t) (iblk m c 1 t) r n
      = Cert.PairProduct.imagPart (m ((c : Thread nD τ).loc main_arg0)) (m ((c : Thread nD τ).loc main_arg1)) b n := by
  unfold blockImag Cert.PairProduct.imagPart
  exact congrArg₂ FloatOps.addf
    (congrArg₂ FloatOps.mulf (block0_at m c t 1 r n b hb) (block1_at m c t 0 r n b hb))
    (congrArg₂ FloatOps.mulf (block0_at m c t 0 r n b hb) (block1_at m c t 1 r n b hb))

/-! ## From the blocks to the array -/

/-- What point `t` writes back is the product in halves read through the point's output block. -/
theorem flushed_eq (c : Dev nD) (t : Fin cfg0.N) :
    (dats m 0 c).flushed 2 t = ((cfg0.win 2).blk t).view.read (Elt F)
      (halves (m ((c : Thread nD τ).loc main_arg0)) (m ((c : Thread nD τ).loc main_arg1))) := by
  obtain ⟨-, -, -, -, -, -, e0, e1⟩ := index_facts t
  have ht : t.val < 32 := lt_of_lt_of_eq t.isLt N_0
  show (cfg0.win 2).cut (grid0.coords t) ((dats m 0 c).after 2 t) = _
  rw [after0_2, out_eq]
  funext j
  obtain ⟨r, q, rfl⟩ : ∃ (r : Fin 8) (q : Fin 131072), j = ix2 r q := ⟨j 0, j 1, eq_ix2 j⟩
  have hr : r.val < 8 := r.isLt
  have hq : q.val < 131072 := q.isLt
  show blockHalves (iblk m c 0 t) (iblk m c 1 t) (ix2 r q)
    = halves (m ((c : Thread nD τ).loc main_arg0)) (m ((c : Thread nD τ).loc main_arg1)) (((cfg0.win 2).blk t).view.emb (ix2 r q))
  by_cases h : q.val < 65536
  · rw [blockHalves_of_lt _ _ (ix2 r q) r ⟨q.val, h⟩ rfl rfl,
      halves_of_lt _ _ _ (⟨t.val * 8 + r.val, by omega⟩ : Fin 256) ⟨q.val, h⟩
        (by show win0_2.index t (0 : Fin 2) * 8 + 1 * r.val = t.val * 8 + r.val; rw [e0]; omega)
        (by show win0_2.index t (1 : Fin 2) * 131072 + 1 * q.val = q.val; rw [e1]; omega)]
    exact blockReal_at m c t r ⟨q.val, h⟩ _ rfl
  · have h' : q.val - 65536 < 65536 := by omega
    rw [blockHalves_of_ge _ _ (ix2 r q) r ⟨q.val - 65536, h'⟩ rfl (by show q.val = 65536 + (q.val - 65536); omega),
      halves_of_ge _ _ _ (⟨t.val * 8 + r.val, by omega⟩ : Fin 256) ⟨q.val - 65536, h'⟩
        (by show win0_2.index t (0 : Fin 2) * 8 + 1 * r.val = t.val * 8 + r.val; rw [e0]; omega)
        (by show win0_2.index t (1 : Fin 2) * 131072 + 1 * q.val = 65536 + (q.val - 65536); rw [e1]; omega)]
    exact blockImag_at m c t r ⟨q.val - 65536, h'⟩ _ rfl

/-- An index of the array is in point `t`'s output block iff each coordinate is in the block's range on its axis. -/
theorem mem_block (t : Fin cfg0.N) (i : S256x131072.Idx) :
    i ∈ ((cfg0.win 2).blk t).view.set ↔ ∀ a : Fin 2, win0_2.index t a * S8x131072.size a ≤ (i a).val
      ∧ (i a).val < win0_2.index t a * S8x131072.size a + S8x131072.size a := by
  show i ∈ ((View.whole main_v2).slice (win0_2.rect t)).set ↔ _
  rw [View.set_slice_whole, Rect.mem_set_unit]
  exact Iff.rfl

/-- Row `i` of the array lies in the output block of point `i / 8`. -/
theorem covered (i : S256x131072.Idx) :
    ∃ t : Fin cfg0.N, (cfg0.win 2).flush t = true ∧ i ∈ ((cfg0.win 2).blk t).view.set := by
  have h0 : (i 0).val < 256 := (i 0).isLt
  have h1 : (i 1).val < 131072 := (i 1).isLt
  have hN : cfg0.N = 32 := N_0
  let t : Fin cfg0.N := ⟨(i 0).val / 8, by rw [hN]; omega⟩
  obtain ⟨-, -, -, -, -, -, e0, e1⟩ := index_facts t
  refine ⟨t, flush0_2 t, ?_⟩
  rw [mem_block]
  intro a
  match a with
  | ⟨0, _⟩ =>
    show win0_2.index t (0 : Fin 2) * 8 ≤ (i 0).val ∧ (i 0).val < win0_2.index t (0 : Fin 2) * 8 + 8
    rw [e0]; show (i 0).val / 8 * 8 ≤ (i 0).val ∧ (i 0).val < (i 0).val / 8 * 8 + 8; omega
  | ⟨1, _⟩ =>
    show win0_2.index t (1 : Fin 2) * 131072 ≤ (i 1).val ∧ (i 1).val < win0_2.index t (1 : Fin 2) * 131072 + 131072
    rw [e1]; omega

/-- The array after the launch holds the product in halves. -/
theorem final (c : Dev nD) : (dats m 0 c).arrAt 2 cfg0.N
    = halves (m ((c : Thread nD τ).loc main_arg0)) (m ((c : Thread nD τ).loc main_arg1)) :=
  (dats m 0 c).arrAt_eq_of_cover 2 _ (fun t _ => flushed_eq m c t) covered

/-! ## The line after the launch, and the run -/

/-- The program's result is that array reshaped into pairs. -/
theorem result_eq (c : Dev nD) : Pipeline.afterTail₀ cfgs (dats m) 0 (V0 m) [hostOps1] c main_v3
    = shapeCast S256x65536x2 (halves (m ((c : Thread nD τ).loc main_arg0)) (m ((c : Thread nD τ).loc main_arg1)))
        shapeCasts_S256x131072_S256x65536x2 := by
  unfold Pipeline.afterTail₀
  show StableHlo.after hostOps1 _ (Proc.devRef .tc main_v3) = _
  after_results
  have e : Pipeline.withArrays (cfgs 0).spec c (V0 m c) (fun w => (dats m 0 c).arrAt w (cfgs 0).N) (Proc.devRef .tc main_v2)
      = halves (m ((c : Thread nD τ).loc main_arg0)) (m ((c : Thread nD τ).loc main_arg1)) :=
    (Pipeline.withArrays_arr spec0 launch0.win.arr_inj c (V0 m c) _ 2).trans (final m c)
  rw [e]
  rfl

/-- Every weakly fair execution of the kernel's program terminates with its result at the reshape of the product in
    halves, and its arguments as they were. -/
theorem run : θ_run defs (onTc (τ := τ) (main (F := F))) ⟨m, fun _ => 0, ρ⟩ fun r => ∀ c : Dev nD,
      r.2.mem ((c.tc : Thread nD τ).loc main_v3)
        = shapeCast S256x65536x2 (halves (m ((c.tc : Thread nD τ).loc main_arg0)) (m ((c.tc : Thread nD τ).loc main_arg1)))
            shapeCasts_S256x131072_S256x65536x2
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    ⟨((h c).2 main_v3 (Pipeline.mem_restRefs_of main_v3 (by decide) (by decide))).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c)⟩)
    (run_main m ρ)

end Cert.KernelIdeal.Whole

end
-- ==== Proof.lean ====
/-
  The kernel multiplies two arrays of complex numbers, stored as 256 rows of 65536 (real, imaginary) pairs, entry by
  entry: for pairs (a, b) and (c, d) it forms (a·c − b·d, b·c + a·d). It first transposes each argument into a plane of
  real parts and a plane of imaginary parts, works on 8 rows per grid point, writes each row's 65536 real parts followed
  by its 65536 imaginary parts into a 256 × 131072 array, and reshapes that array into 256 × 65536 × 2. The reference
  slices the same two planes out of each argument, forms the same two expressions with the same operations in the same
  order, joins real parts and imaginary parts along the rows, and applies the same reshape.

  So both programs end at the SAME reshape of the SAME 256 × 131072 function of the arguments (`PairProduct.halves`):
  the reference by reading its slices and its join at an index (`ReferenceIdeal.Halves.joined_eq`), the kernel because
  each grid point's output block is that function read through the block and the 32 blocks tile the array
  (`KernelIdeal.Whole.run`). The two sides are the same term of the extended reals, so no law of arithmetic and no
  finiteness of the inputs is used; the reshape is never opened. The idealization changed no operation of the kernel, so
  the word-level kernel and its idealization are one text and that conjunct is trivial. The three frames are the programs' runs with the
  results forgotten.
-/
import proofs.«118073_j68186900791724_2_alg».proof.Defs
import proofs.«118073_j68186900791724_2_alg».proof.Proof.Gen.Kernel
import proofs.«118073_j68186900791724_2_alg».proof.Proof.Gen.Kernel.Skeleton
import proofs.«118073_j68186900791724_2_alg».proof.Proof.Gen.Kernel.Launch
import proofs.«118073_j68186900791724_2_alg».proof.Proof.Gen.Kernel.Points
import proofs.«118073_j68186900791724_2_alg».proof.Proof.Gen.Kernel.Frame
import proofs.«118073_j68186900791724_2_alg».proof.Proof.Gen.KernelIdeal
import proofs.«118073_j68186900791724_2_alg».proof.Proof.Gen.KernelIdeal.Skeleton
import proofs.«118073_j68186900791724_2_alg».proof.Proof.Gen.KernelIdeal.Launch
import proofs.«118073_j68186900791724_2_alg».proof.Proof.Gen.KernelIdeal.Points
import proofs.«118073_j68186900791724_2_alg».proof.Proof.Gen.KernelIdeal.Frame
import proofs.«118073_j68186900791724_2_alg».proof.Proof.Gen.ReferenceIdeal
import proofs.«118073_j68186900791724_2_alg».proof.Proof.Gen.ReferenceIdeal.Run
import proofs.«118073_j68186900791724_2_alg».proof.Proof.Gen.ReferenceIdeal.Read
import proofs.«118073_j68186900791724_2_alg».proof.Proof.Gen.Pre_finite_inputs
import proofs.«118073_j68186900791724_2_alg».proof.Proof.ReferenceHalves
import proofs.«118073_j68186900791724_2_alg».proof.Proof.KernelHalves
import Idealize.ShloMosaic.Adequacy
import Idealize.ShloMosaic.Init

noncomputable section

namespace Cert.Proof

open Idealize.ShloMosaic Idealize.ShloMosaic.TcCoe Idealize.SL.Sem

/-- The word-level kernel runs and leaves its arguments as they were. -/
theorem frame_kernel : Cert.frame_Kernel := fun m ρ _ => Cert.Kernel.Gen.frame m ρ

/-- So does its idealization. -/
theorem frame_ideal : Cert.frame_KernelIdeal := fun m ρ _ => Cert.KernelIdeal.Gen.frame m ρ

/-- The reference's run, its result forgotten. -/
theorem frame_reference : Cert.frame_ReferenceIdeal := fun m ρ _ =>
  (θ_run Cert.ReferenceIdeal.defs _ _).mono (fun _ h c => (h c).2) (Cert.ReferenceIdeal.Value.run (F := Ideal) m ρ)

/-- The idealization changed no operation. -/
theorem preserves : Cert.preserves_Kernel_KernelIdeal := trivial

/-- Both programs end at the reshape of the product laid out in halves, of arguments that agree. -/
theorem algebraic : Cert.algebraic_KernelIdeal_ReferenceIdeal := by
  intro m ρ m' ρ' _ hagree
  refine ⟨_, Cert.KernelIdeal.Whole.run (F := Ideal) m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2, Cert.ReferenceIdeal.Read.val_main_v23_eq]
  unfold Cert.ReferenceIdeal.Read.val_main_v23
  rw [Cert.ReferenceIdeal.Halves.joined_eq]

theorem claim : Cert.Claim := ⟨Cert.Kernel.Gen.facts, Cert.KernelIdeal.Gen.facts, Cert.ReferenceIdeal.Gen.facts, Cert.Pre_finite_inputs.Gen.facts,
  frame_kernel, frame_ideal, frame_reference, preserves, algebraic⟩

end Cert.Proof

end
